-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S128x128 : Shape := ⟨2, ![128, 128]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x64 .f32) (main_arg1 : FVec F S800000x64 .f32) (main_arg2 : FVec F S128x128 .f32) (main_arg3 : IVec S800000 32) (main_arg4 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S50000x64 : Shape := ⟨2, ![50000, 64]⟩
abbrev S800000x64 : Shape := ⟨2, ![800000, 64]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S64x128 : Shape := ⟨2, ![64, 128]⟩
abbrev S50000x128 : Shape := ⟨2, ![50000, 128]⟩
abbrev S5000x64 : Shape := ⟨2, ![5000, 64]⟩
abbrev S5000x128 : Shape := ⟨2, ![5000, 128]⟩

abbrev nBuf : Space → Nat
  | .hbm => 25
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S128x128, .f32⟩
  | .hbm, ⟨3, _⟩ => ⟨S800000, .i32⟩
  | .hbm, ⟨4, _⟩ => ⟨S800000, .i32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x64, .f32⟩
  | .hbm, ⟨14, _⟩ => ⟨S_, .f32⟩
  | .hbm, ⟨15, _⟩ => ⟨S50000x64, .f32⟩
  | .hbm, ⟨16, _⟩ => ⟨S800000x1, .i32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S64x128, .f32⟩
  | .hbm, ⟨23, _⟩ => ⟨S64x128, .f32⟩
  | .hbm, ⟨24, _⟩ => ⟨S50000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S5000x128, .f32⟩
  | .local _ .vmem, ⟨7, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S128x128_S64x128_0_0 : S128x128.Slices ![0, 0] S64x128
  slices_S128x128_S64x128_64_0 : S128x128.Slices ![64, 0] S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v9) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S50000x128 : Shape := ⟨2, ![50000, 128]⟩

abbrev nBuf : Space → Nat
  | .hbm => 39
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S128x128, .f32⟩
  | .hbm, ⟨3, _⟩ => ⟨S800000, .i32⟩
  | .hbm, ⟨4, _⟩ => ⟨S800000, .i32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x64, .f32⟩
  | .hbm, ⟨14, _⟩ => ⟨S_, .f32⟩
  | .hbm, ⟨15, _⟩ => ⟨S50000x64, .f32⟩
  | .hbm, ⟨16, _⟩ => ⟨S800000x1, .i32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S50000x128, .f32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .i1⟩
  | .hbm, ⟨27, _⟩ => ⟨S_, .f32⟩
  | .hbm, ⟨28, _⟩ => ⟨S50000x128, .f32⟩
  | .hbm, ⟨29, _⟩ => ⟨S50000x128, .i1⟩
  | .hbm, ⟨30, _⟩ => ⟨S_, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_cst_1 : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_v4 : Ref sig .tc := ⟨.hbm, 33, rfl⟩
abbrev main_call0_v5 : Ref sig .tc := ⟨.hbm, 34, rfl⟩
abbrev main_call0_cst_2 : Ref sig .tc := ⟨.hbm, 35, rfl⟩
abbrev main_call0_v6 : Ref sig .tc := ⟨.hbm, 36, rfl⟩
abbrev main_call0_v7 : Ref sig .tc := ⟨.hbm, 37, rfl⟩
abbrev main_v15 : Ref sig .tc := ⟨.hbm, 38, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S_S50000x128 : S_.BroadcastsInDim S50000x128 (![] : Fin 0 → Fin S50000x128.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HostSums.lean ====
/-
  The two segment sums both programs start from.

  Every edge e has a source node src(e) and a destination node dst(e). A negative source index is first moved up by
  the number of nodes (50000). The node sums have, at node n, the sum over the edges e with dst(e) = n of the
  features of node src(e); the edge sums have there the sum over the same edges of the edge's own label. Both are
  one gather and one scatter-add into a zero array. The two programs apply exactly these operations to the same
  arguments, so the sums enter every later equation as the same two arrays.
-/
import Idealize.ShloMosaic.PureOps

noncomputable section

namespace Cert.LinearElu.Host

open Idealize.ShloMosaic

variable {F : FTy → Type} [FloatOps F]

abbrev Nodes : Shape := ⟨2, ![50000, 64]⟩
abbrev Edges : Shape := ⟨2, ![800000, 64]⟩
abbrev EdgeIds : Shape := ⟨1, ![800000]⟩
abbrev EdgeIdCol : Shape := ⟨2, ![800000, 1]⟩
abbrev Scalar0 : Shape := ⟨0, ![]⟩

/-- The source indices with the negative ones moved up by the number of nodes. -/
def wrapped (hb : Scalar0.BroadcastsInDim EdgeIds (![] : Fin 0 → Fin EdgeIds.rank)) (src : IVec EdgeIds 32) : IVec EdgeIds 32 :=
  select (cmpi .slt src (broadcastInDim EdgeIds ![] hb (constantI Scalar0 32 0#32)))
    (addi src (broadcastInDim EdgeIds ![] hb (constantI Scalar0 32 50000#32))) src

/-- At node n: the sum over the edges into n of the source node's features. -/
def nodeSums (gd : GatherDims Nodes EdgeIdCol Edges) (sd : ScatterDims Nodes EdgeIdCol Edges)
    (hb : Scalar0.BroadcastsInDim EdgeIds (![] : Fin 0 → Fin EdgeIds.rank))
    (hc : EdgeIds.BroadcastsInDim EdgeIdCol (![0] : Fin 1 → Fin EdgeIdCol.rank))
    (hz : Scalar0.BroadcastsInDim Nodes (![] : Fin 0 → Fin Nodes.rank))
    (h : FVec F Nodes .f32) (src dst : IVec EdgeIds 32) : FVec F Nodes .f32 :=
  Host.scatterAdd sd (broadcastInDim Nodes ![] hz (constant Scalar0 .f32 0x00000000#32)) (broadcastInDim EdgeIdCol ![0] hc dst)
    (Host.gather gd h (broadcastInDim EdgeIdCol ![0] hc (wrapped hb src)))

/-- At node n: the sum over the edges into n of the edge's label. -/
def edgeSums (sd : ScatterDims Nodes EdgeIdCol Edges)
    (hc : EdgeIds.BroadcastsInDim EdgeIdCol (![0] : Fin 1 → Fin EdgeIdCol.rank))
    (hz : Scalar0.BroadcastsInDim Nodes (![] : Fin 0 → Fin Nodes.rank))
    (labels : FVec F Edges .f32) (dst : IVec EdgeIds 32) : FVec F Nodes .f32 :=
  Host.scatterAdd sd (broadcastInDim Nodes ![] hz (constant Scalar0 .f32 0x00000000#32)) (broadcastInDim EdgeIdCol ![0] hc dst) labels

end Cert.LinearElu.Host

end
-- ==== Proof.KernelEntry.lean ====
/-
  What the kernel's four input arrays hold when its grid starts.

  The host operations before the grid are the shared segment sums and two slices of the weight matrix: the node sums,
  the edge sums, rows 0..63 of W and rows 64..127 of W, each a function of the program's arguments.
-/
import proofs.«175959_j67439576482328_1_alg».proof.Proof.Gen.KernelIdeal.Frame
import proofs.«175959_j67439576482328_1_alg».proof.Proof.HostSums
import Idealize.ShloMosaic.Lib.StableHlo.Run

noncomputable section

namespace Cert.LinearElu.Kernel

open Cert.KernelIdeal Cert.KernelIdeal.Gen Idealize.ShloMosaic Idealize.ShloMosaic.TcCoe Idealize.SL.Sem Idealize.ShloMosaic.StableHlo
open Cert.LinearElu.Host

variable {F : FTy → Type} [FloatOps F]
variable (m : (ℓ : Loc nD τ sig) → Buf (Elt F) ℓ)

/-- The first input array holds the node sums. -/
theorem entry_nodeSums (c : Dev nD) :
    (V m c main_v9 : S50000x64.Idx → Elt F .f32)
      = nodeSums gather_S50000x64_S800000x1_S800000x64_1_0_n_n_0_1_164 scatter_S50000x64_S800000x1_S800000x64_1_0_0_1
          bcast_S_S800000 bcast_S800000_S800000x1_0 bcast_S_S50000x64
          (m ((c : Thread nD τ).loc main_arg0)) (m ((c : Thread nD τ).loc main_arg3)) (m ((c : Thread nD τ).loc main_arg4)) := by
  dsimp only [Gen.V, Gen.hostOps0]; after_results; rfl

/-- The second holds the edge sums. -/
theorem entry_edgeSums (c : Dev nD) :
    (V m c main_v12 : S50000x64.Idx → Elt F .f32)
      = edgeSums scatter_S50000x64_S800000x1_S800000x64_1_0_0_1 bcast_S800000_S800000x1_0 bcast_S_S50000x64
          (m ((c : Thread nD τ).loc main_arg1)) (m ((c : Thread nD τ).loc main_arg4)) := by
  dsimp only [Gen.V, Gen.hostOps0]; after_results; rfl

/-- The third holds the upper 64 rows of the weight matrix. -/
theorem entry_upper (c : Dev nD) :
    (V m c main_v13 : S64x128.Idx → Elt F .f32)
      = extractStridedSlice S64x128 ![0, 0] (m ((c : Thread nD τ).loc main_arg2)) slices_S128x128_S64x128_0_0 := by
  dsimp only [Gen.V, Gen.hostOps0]; after_results

/-- The fourth holds its lower 64 rows. -/
theorem entry_lower (c : Dev nD) :
    (V m c main_v14 : S64x128.Idx → Elt F .f32)
      = extractStridedSlice S64x128 ![64, 0] (m ((c : Thread nD τ).loc main_arg2)) slices_S128x128_S64x128_64_0 := by
  dsimp only [Gen.V, Gen.hostOps0]; after_results

end Cert.LinearElu.Kernel

end
-- ==== Proof.LibPlainMatmul.lean ====
/-
  A plain matrix product read entry by entry over the extended reals.

  For the dimension numbers of an ordinary product, [M, K] by [K, N] with the left operand contracted on its
  second axis and the right operand on its first, the product accumulated into the zero array has at
  row p and column q the sum over k of (left at (p, k)) times (right at (k, q)). The contraction index of such a
  product has one coordinate, which ranges over K.
-/
import Idealize.ShloMosaic.PureOps.Ideal.Laws
import Idealize.ShloMosaic.Lib.ValueIdx

namespace Cert.Lib.PlainMatmul

open Idealize.ShloMosaic Idealize.ShloMosaic.ValueIdx

variable {M K N : ℕ}

/-- An ordinary product contracts one axis. -/
theorem rank_contr : (DotDims.plain M K N).contr.rank = 1 := rfl

/-- The contracted axis has K positions. -/
theorem size_contr : (DotDims.plain M K N).contr.size ⟨0, by rw [rank_contr]; exact Nat.one_pos⟩ = K := rfl

/-- The contraction positions are the numbers below K. -/
noncomputable abbrev pos : (DotDims.plain M K N).contr.Idx ≃ Fin K :=
  contrEquiv1 (DotDims.plain M K N) K rank_contr size_contr

/-- At output entry (p, q) and contraction position k the left operand is read at (p, k). -/
theorem lhsIdx_eq (p : Fin M) (q : Fin N) (k : Fin K) :
    (DotDims.plain M K N).lhsIdx (ix2 p q) (pos.symm k) = ix2 p k := by
  funext a
  apply Fin.ext
  match a with
  | ⟨0, _⟩ =>
    simp [DotDims.lhsIdx, DotDims.plain]
    rfl
  | ⟨1, _⟩ =>
    refine (DotDims.lhsIdx_val_of_single (DotDims.plain M K N) (cl := (1 : Fin 2)) rfl (ix2 p q) (pos.symm k)).trans ?_
    exact contrEquiv1_symm_val (DotDims.plain M K N) K rank_contr size_contr k

/-- At output entry (p, q) and contraction position k the right operand is read at (k, q). -/
theorem rhsIdx_eq (p : Fin M) (q : Fin N) (k : Fin K) :
    (DotDims.plain M K N).rhsIdx (ix2 p q) (pos.symm k) = ix2 k q := by
  funext a
  apply Fin.ext
  match a with
  | ⟨0, _⟩ =>
    refine (DotDims.rhsIdx_val_of_single (DotDims.plain M K N) (cr := (0 : Fin 2)) rfl (ix2 p q) (pos.symm k)).trans ?_
    exact contrEquiv1_symm_val (DotDims.plain M K N) K rank_contr size_contr k
  | ⟨1, _⟩ =>
    simp [DotDims.rhsIdx, DotDims.plain]
    rfl

/-- The product into the zero array, at entry (p, q), is the sum over k of the products of the operands' entries
    (p, k) and (k, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (pos (M := M) (K := K) (N := N)).symm]
  exact Finset.sum_congr rfl fun k _ => by rw [lhsIdx_eq, rhsIdx_eq]

end Cert.Lib.PlainMatmul
-- ==== Proof.Spec.lean ====
/-
  The exponential linear unit of a two-part linear map, over the extended reals.

  Given node sums A and edge sums B, both with 64 columns, and a weight matrix W with 128 rows, the result at row r and
  column q is the unit applied to
      sum over k < 64 of A(r, k) * W(k, q)   +   sum over k < 64 of B(r, k) * W(64 + k, q).
  The unit is the identity above zero and e^a - 1 elsewhere (at minus infinity: 0 - 1).
  Placing A and B side by side and multiplying by the whole of W gives the same number, because a sum over 128 positions
  is the sum over its first 64 plus the sum over its last 64; addition of extended reals is commutative and
  associative, so no finiteness is needed.
-/
import Idealize.ShloMosaic.PureOps.Ideal.Laws
import Idealize.ShloMosaic.Lib.ValueIdx

noncomputable section

namespace Cert.LinearElu

open Idealize.ShloMosaic Idealize.ShloMosaic.ValueIdx

/-- The exponential linear unit with unit slope: the identity above zero, `e^a - 1` elsewhere. -/
def elu (a : EReal) : EReal := if 0 < a then a else Ideal.exp a - 1

theorem elu_of_pos {a : EReal} (h : 0 < a) : elu a = a := if_pos h
theorem elu_of_not_pos {a : EReal} (h : ¬ 0 < a) : elu a = Ideal.exp a - 1 := if_neg h

/-- Row `k` of the upper half of a matrix of 128 rows. -/
def upper (k : Fin 64) : Fin 128 := ⟨k.val, by omega⟩
/-- Row `k` of its lower half. -/
def lower (k : Fin 64) : Fin 128 := ⟨64 + k.val, by omega⟩

theorem upper_val (k : Fin 64) : (upper k).val = k.val := rfl
theorem lower_val (k : Fin 64) : (lower k).val = 64 + k.val := rfl

/-- A sum over 128 positions is the sum over the first 64 plus the sum over the last 64. -/
theorem sum_halves {M : Type} [AddCommMonoid M] (f : Fin 128 → M) :
    ∑ k : Fin 128, f k = ∑ k : Fin 64, f (upper k) + ∑ k : Fin 64, f (lower k) :=
  Fin.sum_univ_add (a := 64) (b := 64) f

/-- The number before the unit at row `r`, column `q`. -/
def pre (A B : (⟨2, ![50000, 64]⟩ : Shape).Idx → EReal) (W : (⟨2, ![128, 128]⟩ : Shape).Idx → EReal)
    (r : Fin 50000) (q : Fin 128) : EReal :=
  ∑ k : Fin 64, A (ix2 r k) * W (ix2 (upper k) q) + ∑ k : Fin 64, B (ix2 r k) * W (ix2 (lower k) q)

/-- The whole result array, entry by entry. -/
def result (A B : (⟨2, ![50000, 64]⟩ : Shape).Idx → EReal) (W : (⟨2, ![128, 128]⟩ : Shape).Idx → EReal) :
    (⟨2, ![50000, 128]⟩ : Shape).Idx → EReal :=
  fun j => elu (pre A B W (j 0) (j 1))

theorem result_ix2 (A B : (⟨2, ![50000, 64]⟩ : Shape).Idx → EReal) (W : (⟨2, ![128, 128]⟩ : Shape).Idx → EReal)
    (r : Fin 50000) (q : Fin 128) : result A B W (ix2 r q) = elu (pre A B W r q) := rfl

/-- The pattern of the single-precision number one denotes 1. -/
theorem ofBits_one_f32 : Ideal.ofBits .f32 0x3F800000#32 = 1 := IdealRules.sign_bit.ideal_onePat .f32

/-- Comparing "greater than zero" gives the one-bit word 1 exactly above zero. -/
theorem cmp_gt_zero_eq_one_iff (a : EReal) : Ideal.cmp .ogt a 0 = 1 ↔ 0 < a := by
  by_cases h : 0 < a <;> simp [Ideal.cmp, h]

/-- The unit spelt as a selection between `a` and `e^a` less the pattern of one, on the comparison with the pattern
    of zero. -/
theorem select_exp_sub_one (a : Ideal .f32) :
    Scalar.select (FloatOps.cmpf .ogt a (Scalar.ofBits (F := Ideal) .f32 0x00000000#32)) a
        (FloatOps.subf (FloatOps.exp a) (Scalar.ofBits (F := Ideal) .f32 0x3F800000#32))
      = elu a := by
  have hs : ∀ b : BitVec 32, Scalar.ofBits (F := Ideal) .f32 b = Ideal.ofBits .f32 b := fun _ => rfl
  simp only [Scalar.select, Ideal.cmpf_def, hs, Ideal.ofBits_zero_f32, ofBits_one_f32, Ideal.subf_def, Ideal.exp_def,
    cmp_gt_zero_eq_one_iff, elu]

/-- The unit spelt as the host spells it: on `a > 0` the value `a`, otherwise one times "e^x - 1" at `x` the selection of
    zero (above zero) or `a`. In the branch that is taken the inner selection is `a`. -/
theorem select_one_mul_expm1 (a : Ideal .f32) :
    Scalar.select (Ideal.cmp .ogt a (Ideal.ofBits .f32 0x00000000#32)) a
        (Ideal.ofBits .f32 0x3F800000#32
          * (Ideal.exp (Scalar.select (Ideal.cmp .ogt a (Ideal.ofBits .f32 0x00000000#32)) (Ideal.ofBits .f32 0x00000000#32) a) - 1))
      = elu a := by
  simp only [Scalar.select, Ideal.ofBits_zero_f32, ofBits_one_f32, cmp_gt_zero_eq_one_iff, one_mul, elu]
  by_cases h : 0 < a
  · rw [if_pos h, if_pos h]
  · rw [if_neg h, if_neg h, if_neg h]

end Cert.LinearElu

end
-- ==== Proof.KernelPayload.lean ====
/-
  What one grid step of the kernel computes, entry by entry.

  A step holds 5000 rows of the node sums (x0) and of the edge sums (x1), and the two halves of the weight matrix
  (x2: rows 0..63, x3: rows 64..127). It rounds all four to half width (the identity on extended reals), multiplies
  x0 by x2 and x1 by x3 into zero accumulators, adds the two products and applies the exponential linear unit spelt as
  a selection between the sum and its exponential less one. So at row p and column q the stored value is the unit of
      sum over k < 64 of x0(p, k) * x2(k, q)  +  sum over k < 64 of x1(p, k) * x3(k, q).
-/
import proofs.«175959_j67439576482328_1_alg».proof.Proof.Gen.KernelIdeal.Skeleton
import proofs.«175959_j67439576482328_1_alg».proof.Proof.LibPlainMatmul
import proofs.«175959_j67439576482328_1_alg».proof.Proof.Spec
import Idealize.ShloMosaic.Lib.Pipeline.Value

noncomputable section

namespace Cert.LinearElu.Kernel

open Idealize.ShloMosaic Idealize.ShloMosaic.ValueIdx Cert.KernelIdeal Cert.KernelIdeal.Gen Cert.LinearElu

/-- The kernel's product is an ordinary one: 5000 x 64 by 64 x 128. -/
theorem dims_plain : dot_S5000x64_S64x128_S5000x128_1_0_0_1_n_n = DotDims.plain 5000 64 128 := rfl

/-- One product of the step, at (p, q): the rounding and the trivial reshapes drop out. -/
theorem product_apply (l : Vec Ideal S5000x64 .f32) (r : Vec Ideal S64x128 .f32) (p : Fin 5000) (q : Fin 128) :
    matmul dot_S5000x64_S64x128_S5000x128_1_0_0_1_n_n none
        (truncf .bf16 (shapeCast S5000x64 l shapeCasts_S5000x64_S5000x64) bitsLt_bf16_f32)
        (truncf .bf16 (shapeCast S64x128 r shapeCasts_S64x128_S64x128) bitsLt_bf16_f32)
        (constant (F := Ideal) S5000x128 .f32 0x00000000#32) (ix2 p q)
      = ∑ k : Fin 64, l (ix2 p k) * r (ix2 k q) := by
  rw [dims_plain, shapeCast_self, shapeCast_self]
  exact Cert.Lib.PlainMatmul.matmul_zero_apply none _ _ p q

/-- The stored value at (p, q): the selection, on "the sum of the two products' entries is above zero", between that sum
    and its exponential less one. -/
theorem payload_unfold (x0 x1 : Vec Ideal S5000x64 .f32) (x2 x3 : Vec Ideal S64x128 .f32) (p : Fin 5000) (q : Fin 128) :
    k0_pay1 (F := Ideal) x0 x1 x2 x3 (ix2 p q)
      = Scalar.select (FloatOps.cmpf .ogt
            (matmul dot_S5000x64_S64x128_S5000x128_1_0_0_1_n_n none
                (truncf .bf16 (shapeCast S5000x64 x0 shapeCasts_S5000x64_S5000x64) bitsLt_bf16_f32)
                (truncf .bf16 (shapeCast S64x128 x2 shapeCasts_S64x128_S64x128) bitsLt_bf16_f32)
                (constant (F := Ideal) S5000x128 .f32 0x00000000#32) (ix2 p q)
              + matmul dot_S5000x64_S64x128_S5000x128_1_0_0_1_n_n none
                (truncf .bf16 (shapeCast S5000x64 x1 shapeCasts_S5000x64_S5000x64) bitsLt_bf16_f32)
                (truncf .bf16 (shapeCast S64x128 x3 shapeCasts_S64x128_S64x128) bitsLt_bf16_f32)
                (constant (F := Ideal) S5000x128 .f32 0x00000000#32) (ix2 p q))
            (Scalar.ofBits (F := Ideal) .f32 0x00000000#32))
          (matmul dot_S5000x64_S64x128_S5000x128_1_0_0_1_n_n none
                (truncf .bf16 (shapeCast S5000x64 x0 shapeCasts_S5000x64_S5000x64) bitsLt_bf16_f32)
                (truncf .bf16 (shapeCast S64x128 x2 shapeCasts_S64x128_S64x128) bitsLt_bf16_f32)
                (constant (F := Ideal) S5000x128 .f32 0x00000000#32) (ix2 p q)
              + matmul dot_S5000x64_S64x128_S5000x128_1_0_0_1_n_n none
                (truncf .bf16 (shapeCast S5000x64 x1 shapeCasts_S5000x64_S5000x64) bitsLt_bf16_f32)
                (truncf .bf16 (shapeCast S64x128 x3 shapeCasts_S64x128_S64x128) bitsLt_bf16_f32)
                (constant (F := Ideal) S5000x128 .f32 0x00000000#32) (ix2 p q))
          (FloatOps.subf
            (FloatOps.exp
              (matmul dot_S5000x64_S64x128_S5000x128_1_0_0_1_n_n none
                (truncf .bf16 (shapeCast S5000x64 x0 shapeCasts_S5000x64_S5000x64) bitsLt_bf16_f32)
                (truncf .bf16 (shapeCast S64x128 x2 shapeCasts_S64x128_S64x128) bitsLt_bf16_f32)
                (constant (F := Ideal) S5000x128 .f32 0x00000000#32) (ix2 p q)
              + matmul dot_S5000x64_S64x128_S5000x128_1_0_0_1_n_n none
                (truncf .bf16 (shapeCast S5000x64 x1 shapeCasts_S5000x64_S5000x64) bitsLt_bf16_f32)
                (truncf .bf16 (shapeCast S64x128 x3 shapeCasts_S64x128_S64x128) bitsLt_bf16_f32)
                (constant (F := Ideal) S5000x128 .f32 0x00000000#32) (ix2 p q)))
            (Scalar.ofBits (F := Ideal) .f32 0x3F800000#32)) := rfl

/-- The stored value at (p, q) is the unit of the sum of the two products' entries. -/
theorem payload_apply (x0 x1 : Vec Ideal S5000x64 .f32) (x2 x3 : Vec Ideal S64x128 .f32) (p : Fin 5000) (q : Fin 128) :
    k0_pay1 (F := Ideal) x0 x1 x2 x3 (ix2 p q)
      = elu (∑ k : Fin 64, x0 (ix2 p k) * x2 (ix2 k q) + ∑ k : Fin 64, x1 (ix2 p k) * x3 (ix2 k q)) := by
  refine (payload_unfold x0 x1 x2 x3 p q).trans ?_
  rw [product_apply x0 x2 p q, product_apply x1 x3 p q]
  exact select_exp_sub_one _

end Cert.LinearElu.Kernel

end
-- ==== Proof.KernelValue.lean ====
/-
  The kernel's result array as one function of its four input arrays.

  The grid has ten steps; step t reads rows 5000 t .. 5000 t + 4999 of the node sums and of the edge sums, and the two
  half weight matrices whole, and writes rows 5000 t .. 5000 t + 4999 of the result. So the row p of a step's block is row
  5000 t + p of the arrays, and entry (r, q) of the result is the unit of
      sum over k < 64 of A(r, k) * W1(k, q)  +  sum over k < 64 of B(r, k) * W2(k, q).
  The ten blocks of 5000 rows tile the 50000 rows: row r lies in block r / 5000.
-/
import proofs.«175959_j67439576482328_1_alg».proof.Proof.Gen.KernelIdeal.Value
import proofs.«175959_j67439576482328_1_alg».proof.Proof.KernelPayload

noncomputable section

namespace Cert.LinearElu.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.LinearElu

variable (m : (ℓ : Loc nD τ sig) → Buf (Elt Ideal) ℓ) (ρ : Dev nD → PrngReg)

/-- The result over the two sums and the two half weight matrices, entry by entry. -/
def whole (A B : S50000x64.Idx → EReal) (W1 W2 : S64x128.Idx → EReal) : S50000x128.Idx → EReal :=
  fun j => elu (∑ k : Fin 64, A (ix2 (j 0) k) * W1 (ix2 k (j 1)) + ∑ k : Fin 64, B (ix2 (j 0) k) * W2 (ix2 k (j 1)))

/-- Row p of the block of step b. -/
def row (b : Fin 10) (p : Fin 5000) : Fin 50000 := ⟨b.val * 5000 + p.val, by omega⟩

/-- One step's stored block is the corresponding block of rows of `whole`, once each loaded block is known to be the
    rows of its array that the step covers. -/
theorem step_value (x0 x1 : Vec Ideal S5000x64 .f32) (x2 x3 : Vec Ideal S64x128 .f32)
    (A B : S50000x64.Idx → EReal) (W1 W2 : S64x128.Idx → EReal) (b : Fin 10)
    (h0 : ∀ (p : Fin 5000) (k : Fin 64), x0 (ix2 p k) = A (ix2 (row b p) k))
    (h1 : ∀ (p : Fin 5000) (k : Fin 64), x1 (ix2 p k) = B (ix2 (row b p) k))
    (h2 : ∀ (k : Fin 64) (q : Fin 128), x2 (ix2 k q) = W1 (ix2 k q))
    (h3 : ∀ (k : Fin 64) (q : Fin 128), x3 (ix2 k q) = W2 (ix2 k q))
    (p : Fin 5000) (q : Fin 128) :
    k0_pay1 (F := Ideal) x0 x1 x2 x3 (ix2 p q) = whole A B W1 W2 (ix2 (row b p) q) := by
  rw [payload_apply]
  show _ = elu (∑ k : Fin 64, A (ix2 (row b p) k) * W1 (ix2 k q) + ∑ k : Fin 64, B (ix2 (row b p) k) * W2 (ix2 k q))
  simp only [h0, h1, h2, h3]

/-- The same at any index of the block. -/
theorem step_value_at (x0 x1 : Vec Ideal S5000x64 .f32) (x2 x3 : Vec Ideal S64x128 .f32)
    (A B : S50000x64.Idx → EReal) (W1 W2 : S64x128.Idx → EReal) (b : Fin 10)
    (h0 : ∀ (p : Fin 5000) (k : Fin 64), x0 (ix2 p k) = A (ix2 (row b p) k))
    (h1 : ∀ (p : Fin 5000) (k : Fin 64), x1 (ix2 p k) = B (ix2 (row b p) k))
    (h2 : ∀ (k : Fin 64) (q : Fin 128), x2 (ix2 k q) = W1 (ix2 k q))
    (h3 : ∀ (k : Fin 64) (q : Fin 128), x3 (ix2 k q) = W2 (ix2 k q))
    (z : S5000x128.Idx) :
    k0_pay1 (F := Ideal) x0 x1 x2 x3 z = whole A B W1 W2 (ix2 (row b (z 0)) (z 1)) := by
  obtain ⟨p, q, rfl⟩ : ∃ (p : Fin 5000) (q : Fin 128), z = ix2 p q := ⟨z 0, z 1, eq_ix2 z⟩
  exact step_value x0 x1 x2 x3 A B W1 W2 b h0 h1 h2 h3 p q

theorem zero_offsets : (![0, 0] : Fin 2 → Nat) = fun _ => 0 := funext fun a => by fin_cases a <;> rfl

/-- The printed index maps over the ten steps: the result's block of rows is the step's number, -/
theorem index_rows : ∀ t : Fin cfg0.N, win0_4.index t (0 : Fin 2) = t.val :=
  (by decide +kernel : ∀ t : Fin grid0.N, _)

/-- the two sums' blocks move with the result's, -/
theorem index_moving : ∀ t : Fin cfg0.N, win0_0.index t (0 : Fin 2) = win0_4.index t (0 : Fin 2) + 0
    ∧ win0_0.index t (1 : Fin 2) = win0_4.index t (1 : Fin 2) + 0
    ∧ win0_1.index t (0 : Fin 2) = win0_4.index t (0 : Fin 2) + 0
    ∧ win0_1.index t (1 : Fin 2) = win0_4.index t (1 : Fin 2) + 0 :=
  (by decide +kernel : ∀ t : Fin grid0.N, _)

/-- and the half weight matrices stay, as does every block along the columns. -/
theorem index_fixed : ∀ t : Fin cfg0.N, win0_2.index t (0 : Fin 2) = 0 ∧ win0_2.index t (1 : Fin 2) = 0
    ∧ win0_3.index t (0 : Fin 2) = 0 ∧ win0_3.index t (1 : Fin 2) = 0 ∧ win0_4.index t (1 : Fin 2) = 0 :=
  (by decide +kernel : ∀ t : Fin grid0.N, _)

/-- Step t's block of a 64-column array of 50000 rows, read at (p, k), is the array at row 5000 t + p; this holds of
    every array. -/
theorem read_nodeRows (X : S50000x64.Idx → EReal) (t : Fin cfg0.N) (ht : t.val < 10) (p : Fin 5000) (k : Fin 64) :
    ((cfg0.win 0).blk t).view.read (Elt Ideal) X (ix2 p k) = X (ix2 (row ⟨t.val, ht⟩ p) k) := by
  have e40 := index_rows t
  obtain ⟨e00, e01, -, -⟩ := index_moving t
  obtain ⟨-, -, -, -, e41⟩ := index_fixed t
  rw [View.read_apply]
  refine (cast_eq _ _).trans (congrArg X ?_)
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

/-- The same for the second array. -/
theorem read_edgeRows (X : S50000x64.Idx → EReal) (t : Fin cfg0.N) (ht : t.val < 10) (p : Fin 5000) (k : Fin 64) :
    ((cfg0.win 1).blk t).view.read (Elt Ideal) X (ix2 p k) = X (ix2 (row ⟨t.val, ht⟩ p) k) := by
  have e40 := index_rows t
  obtain ⟨-, -, e10, e11⟩ := index_moving t
  obtain ⟨-, -, -, -, e41⟩ := index_fixed t
  rw [View.read_apply]
  refine (cast_eq _ _).trans (congrArg X ?_)
  funext a; apply Fin.ext
  match a with
  | ⟨0, _⟩ => show win0_1.index t (0 : Fin 2) * 5000 + 1 * p.val = t.val * 5000 + p.val; omega
  | ⟨1, _⟩ => show win0_1.index t (1 : Fin 2) * 64 + 1 * k.val = k.val; omega

/-- Every step's block of a half weight matrix is the whole of it. -/
theorem read_upperHalf (X : S64x128.Idx → EReal) (t : Fin cfg0.N) (k : Fin 64) (q : Fin 128) :
    ((cfg0.win 2).blk t).view.read (Elt Ideal) X (ix2 k q) = X (ix2 k q) := by
  obtain ⟨e20, e21, -, -, -⟩ := index_fixed t
  rw [View.read_apply]
  refine (cast_eq _ _).trans (congrArg X ?_)
  funext a; apply Fin.ext
  match a with
  | ⟨0, _⟩ => show win0_2.index t (0 : Fin 2) * 64 + 1 * k.val = k.val; omega
  | ⟨1, _⟩ => show win0_2.index t (1 : Fin 2) * 128 + 1 * q.val = q.val; omega

theorem read_lowerHalf (X : S64x128.Idx → EReal) (t : Fin cfg0.N) (k : Fin 64) (q : Fin 128) :
    ((cfg0.win 3).blk t).view.read (Elt Ideal) X (ix2 k q) = X (ix2 k q) := by
  obtain ⟨-, -, e30, e31, -⟩ := index_fixed t
  rw [View.read_apply]
  refine (cast_eq _ _).trans (congrArg X ?_)
  funext a; apply Fin.ext
  match a with
  | ⟨0, _⟩ => show win0_3.index t (0 : Fin 2) * 64 + 1 * k.val = k.val; omega
  | ⟨1, _⟩ => show win0_3.index t (1 : Fin 2) * 128 + 1 * q.val = q.val; omega

/-- Step t's block of a 128-column array of 50000 rows, read at an index y of the block, is the array at row
    5000 t + (y's row) and y's column. -/
theorem read_resultRows (G : S50000x128.Idx → EReal) (t : Fin cfg0.N) (ht : t.val < 10)
    (y : ((cfg0.win 4).xblock (grid0.coords t)).Idx) :
    ((cfg0.win 4).blk t).view.read (Elt Ideal) G y
      = G (ix2 (row ⟨t.val, ht⟩ ((cfg0.win 4).xinj (grid0.coords t) y 0)) ((cfg0.win 4).xinj (grid0.coords t) y 1)) := by
  have e40 := index_rows t
  obtain ⟨-, -, -, -, e41⟩ := index_fixed t
  rw [View.read_apply]
  refine (cast_eq _ _).trans (congrArg G ?_)
  funext a; apply Fin.ext
  match a with
  | ⟨0, _⟩ => show win0_4.index t (0 : Fin 2) * 5000 + 1 * (y 0).val = t.val * 5000 + (y 0).val; omega
  | ⟨1, _⟩ => show win0_4.index t (1 : Fin 2) * 128 + 1 * (y 1).val = (y 1).val; omega

/-- The four arrays the grid starts from: the windows' arrays as they stand when the first step begins. -/
abbrev entry0 (c : Dev nD) := V m c (Pipeline.arrRef spec0 (0 : Fin cfg0.W))
abbrev entry1 (c : Dev nD) := V m c (Pipeline.arrRef spec0 (1 : Fin cfg0.W))
abbrev entry2 (c : Dev nD) := V m c (Pipeline.arrRef spec0 (2 : Fin cfg0.W))
abbrev entry3 (c : Dev nD) := V m c (Pipeline.arrRef spec0 (3 : Fin cfg0.W))

/-- What step t writes back is block t of `whole` of the four input arrays. -/
theorem flushed_eq (c : Dev nD) (t : Fin cfg0.N) :
    (dats m 0 c).flushed 4 t
      = ((cfg0.win 4).blk t).view.read (Elt Ideal) (whole (entry0 m c) (entry1 m c) (entry2 m c) (entry3 m c)) := by
  rw [flushed4]
  unfold out0_4
  rw [View.canon_unit_zero zero_offsets]
  simp only [View.ld_unit_zero (S := S5000x64) zero_offsets, View.ld_unit_zero (S := S64x128) zero_offsets]
  have ht : t.val < 10 := by have := t.isLt; have hN : cfg0.N = 10 := N_0; omega
  funext y
  rw [read_resultRows (whole (entry0 m c) (entry1 m c) (entry2 m c) (entry3 m c)) t ht y]
  refine step_value_at (iblk m c 0 t) (iblk m c 1 t) (iblk m c 2 t) (iblk m c 3 t)
    (entry0 m c) (entry1 m c) (entry2 m c) (entry3 m c) ⟨t.val, ht⟩ ?_ ?_ ?_ ?_
    ((cfg0.win 4).xinj (grid0.coords t) y)
  · intro p k; unfold iblk; exact read_nodeRows (entry0 m c) t ht p k
  · intro p k; unfold iblk; exact read_edgeRows (entry1 m c) t ht p k
  · intro k q; unfold iblk; exact read_upperHalf (entry2 m c) t k q
  · intro k q; unfold iblk; exact read_lowerHalf (entry3 m c) t k q

/-- An index of the result array lies in step t's block exactly when each coordinate lies in the block's range. -/
theorem mem_block (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v15).slice (win0_4.rect t)).set ↔ _
  rw [View.set_slice_whole, Rect.mem_set_unit]
  exact Iff.rfl

/-- Every row of the result lies in some step's block: row r in block r / 5000. -/
theorem covered (i : S50000x128.Idx) :
    ∃ t : Fin cfg0.N, (cfg0.win 4).flush t = true ∧ i ∈ ((cfg0.win 4).blk t).view.set := by
  have hN : cfg0.N = 10 := N_0
  have hi0 : (i 0).val < 50000 := (i 0).isLt
  have hi1 : (i 1).val < 128 := (i 1).isLt
  have hlt : (i 0).val / 5000 < cfg0.N := by rw [hN]; omega
  have e40 := index_rows ⟨(i 0).val / 5000, hlt⟩
  obtain ⟨-, -, -, -, e41⟩ := index_fixed ⟨(i 0).val / 5000, hlt⟩
  refine ⟨⟨(i 0).val / 5000, hlt⟩, flush0_4 _, ?_⟩
  rw [mem_block]
  intro a
  match a with
  | ⟨0, _⟩ =>
    show win0_4.index ⟨(i 0).val / 5000, hlt⟩ (0 : Fin 2) * 5000 ≤ (i 0).val
      ∧ (i 0).val < win0_4.index ⟨(i 0).val / 5000, hlt⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, hlt⟩ (1 : Fin 2) * 128 ≤ (i 1).val
      ∧ (i 1).val < win0_4.index ⟨(i 0).val / 5000, hlt⟩ (1 : Fin 2) * 128 + 128
    rw [e41]; omega

/-- After the run the result array is `whole` of the four input arrays. -/
theorem final (c : Dev nD) :
    (dats m 0 c).arrAt 4 cfg0.N = whole (entry0 m c) (entry1 m c) (entry2 m c) (entry3 m c) :=
  (dats m 0 c).arrAt_eq_of_cover 4 (whole (entry0 m c) (entry1 m c) (entry2 m c) (entry3 m c))
    (fun t _ => flushed_eq m c t) covered

end Cert.LinearElu.Kernel

end
-- ==== Proof.KernelRun.lean ====
/-
  The kernel program run to its end, its result stated by the specification.

  The result array is `whole` of the four arrays the grid starts from; those are the node sums, the edge sums and the
  upper and lower 64 rows of the weight matrix W. Row k of the upper half is row k of W and row k of the lower half is
  row 64 + k of W, so `whole` of them is the specified result over W.
-/
import proofs.«175959_j67439576482328_1_alg».proof.Proof.KernelEntry
import proofs.«175959_j67439576482328_1_alg».proof.Proof.KernelValue

noncomputable section

namespace Cert.LinearElu.Kernel

open Cert.KernelIdeal Cert.KernelIdeal.Gen Idealize.ShloMosaic Idealize.ShloMosaic.TcCoe Idealize.SL.Sem
open Idealize.ShloMosaic.ValueIdx
open Cert.LinearElu Cert.LinearElu.Host

variable (m : (ℓ : Loc nD τ sig) → Buf (Elt Ideal) ℓ) (ρ : Dev nD → PrngReg)

/-- With the two half matrices cut from one matrix W, the kernel's result is the specified one. -/
theorem whole_of_halves (A B : S50000x64.Idx → EReal) (W : S128x128.Idx → EReal) :
    whole A B (extractStridedSlice S64x128 ![0, 0] W slices_S128x128_S64x128_0_0)
        (extractStridedSlice S64x128 ![64, 0] W slices_S128x128_S64x128_64_0)
      = result A B W := by
  funext j
  obtain ⟨r, q, rfl⟩ : ∃ (r : Fin 50000) (q : Fin 128), j = ix2 r q := ⟨j 0, j 1, eq_ix2 j⟩
  have hu : ∀ k : Fin 64, extractStridedSlice S64x128 ![0, 0] W slices_S128x128_S64x128_0_0 (ix2 k q) = W (ix2 (upper k) q) :=
    fun k => extractStridedSlice_apply ![0, 0] W slices_S128x128_S64x128_0_0 (ix2 k q) (ix2 (upper k) q) (fun a => by
      match a with
      | ⟨0, _⟩ => show k.val = 0 + k.val; omega
      | ⟨1, _⟩ => show q.val = 0 + q.val; omega)
  have hl : ∀ k : Fin 64, extractStridedSlice S64x128 ![64, 0] W slices_S128x128_S64x128_64_0 (ix2 k q) = W (ix2 (lower k) q) :=
    fun k => extractStridedSlice_apply ![64, 0] W slices_S128x128_S64x128_64_0 (ix2 k q) (ix2 (lower k) q) (fun a => by
      match a with
      | ⟨0, _⟩ => show 64 + k.val = 64 + k.val; rfl
      | ⟨1, _⟩ => show q.val = 0 + q.val; omega)
  show elu (∑ k : Fin 64, A (ix2 r k) * extractStridedSlice S64x128 ![0, 0] W slices_S128x128_S64x128_0_0 (ix2 k q)
      + ∑ k : Fin 64, B (ix2 r k) * extractStridedSlice S64x128 ![64, 0] W slices_S128x128_S64x128_64_0 (ix2 k q))
    = elu (pre A B W r q)
  simp only [hu, hl]
  rfl

/-- The node sums and the edge sums of the kernel program's arguments on core c. -/
abbrev nodeSumsOf (c : Dev nD) : S50000x64.Idx → EReal :=
  nodeSums (F := Ideal) gather_S50000x64_S800000x1_S800000x64_1_0_n_n_0_1_164 scatter_S50000x64_S800000x1_S800000x64_1_0_0_1
    bcast_S_S800000 bcast_S800000_S800000x1_0 bcast_S_S50000x64
    (m ((c : Thread nD τ).loc main_arg0)) (m ((c : Thread nD τ).loc main_arg3)) (m ((c : Thread nD τ).loc main_arg4))
abbrev edgeSumsOf (c : Dev nD) : S50000x64.Idx → EReal :=
  edgeSums (F := Ideal) scatter_S50000x64_S800000x1_S800000x64_1_0_0_1 bcast_S800000_S800000x1_0 bcast_S_S50000x64
    (m ((c : Thread nD τ).loc main_arg1)) (m ((c : Thread nD τ).loc main_arg4))

/-- The contents of one buffer under two names of it. -/
theorem V_heq (c : Dev nD) {b b' : Ref sig .tc} (h : b = b') : HEq (V m c b) (V m c b') := by
  subst h; exact HEq.rfl

/-- The grid's four input windows stage these four buffers. -/
theorem window0_array : Pipeline.arrRef spec0 (0 : Fin cfg0.W) = main_v9 := rfl
theorem window1_array : Pipeline.arrRef spec0 (1 : Fin cfg0.W) = main_v12 := rfl
theorem window2_array : Pipeline.arrRef spec0 (2 : Fin cfg0.W) = main_v13 := rfl
theorem window3_array : Pipeline.arrRef spec0 (3 : Fin cfg0.W) = main_v14 := rfl

/-- After the run the result array is the specified result of the sums and the weight matrix. -/
theorem final_spec (c : Dev nD) :
    (dats m 0 c).arrAt 4 cfg0.N = result (nodeSumsOf m c) (edgeSumsOf m c) (m ((c : Thread nD τ).loc main_arg2)) := by
  have h0 : (entry0 m c : S50000x64.Idx → EReal) = nodeSumsOf m c :=
    (eq_of_heq (V_heq m c window0_array)).trans (entry_nodeSums m c)
  have h1 : (entry1 m c : S50000x64.Idx → EReal) = edgeSumsOf m c :=
    (eq_of_heq (V_heq m c window1_array)).trans (entry_edgeSums m c)
  have h2 : (entry2 m c : S64x128.Idx → EReal)
      = extractStridedSlice S64x128 ![0, 0] (m ((c : Thread nD τ).loc main_arg2)) slices_S128x128_S64x128_0_0 :=
    (eq_of_heq (V_heq m c window2_array)).trans (entry_upper m c)
  have h3 : (entry3 m c : S64x128.Idx → EReal)
      = extractStridedSlice S64x128 ![64, 0] (m ((c : Thread nD τ).loc main_arg2)) slices_S128x128_S64x128_64_0 :=
    (eq_of_heq (V_heq m c window3_array)).trans (entry_lower m c)
  rw [final, h0, h1, h2, h3]
  exact whole_of_halves _ _ _

/-- Every weakly fair execution of the kernel program ends with the result at the specified array, the arguments
    unchanged. -/
theorem run : θ_run defs (onTc (τ := τ) (main (F := Ideal))) ⟨m, fun _ => 0, ρ⟩ fun r => ∀ c : Dev nD,
      r.2.mem ((c : Thread nD τ).loc main_v15) = result (nodeSumsOf m c) (edgeSumsOf m c) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_spec m c), (h c).2⟩) (Cert.KernelIdeal.Value.run_blocks m ρ)

end Cert.LinearElu.Kernel

end
-- ==== Proof.RefRun.lean ====
/-
  The reference program run to its end.

  Its thirty-four operations in order: the wrapped source indices, the gather and the two scatter-adds (the node sums
  and the edge sums), their concatenation side by side, one product with the whole weight matrix, and the exponential
  linear unit as the host spells it — on "greater than zero" the value itself, otherwise one times "e^x - 1" taken at
  the value with zero put where it is greater than zero. The helper functions' operations are listed where they are
  called. Every execution ends with the result at that composed term of the arguments, the arguments unchanged.
-/
import proofs.«175959_j67439576482328_1_alg».proof.Proof.Gen.ReferenceIdeal
import proofs.«175959_j67439576482328_1_alg».proof.Proof.HostSums
import Idealize.ShloMosaic.Lib.StableHlo.Run

noncomputable section

namespace Cert.LinearElu.Reference

open Cert.ReferenceIdeal Cert.ReferenceIdeal.Gen Idealize.ShloMosaic Idealize.ShloMosaic.TcCoe Idealize.SL.Sem Idealize.ShloMosaic.StableHlo
open Cert.LinearElu.Host

variable {F : FTy → Type} [FloatOps F]

/-- The operations of the program, in order, the called functions' own operations at their call sites. -/
abbrev ops : List (HloOp τ sig (Elt F)) :=
  [
    nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg3 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg3 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg3 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v7 (broadcastInDim S50000x64 ![] bcast_S_S50000x64 : (⟨S_, .f32⟩ : BufTy).Contents (Elt F) → (⟨S50000x64, .f32⟩ : BufTy).Contents (Elt F)),
    unary main_arg4 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_1 (constant S_ .f32 0x00000000#32),
    unary main_cst_1 main_v10 (broadcastInDim S50000x64 ![] bcast_S_S50000x64 : (⟨S_, .f32⟩ : BufTy).Contents (Elt F) → (⟨S50000x64, .f32⟩ : BufTy).Contents (Elt F)),
    unary main_arg4 main_v11 (broadcastInDim S800000x1 ![0] bcast_S800000_S800000x1_0 : (⟨S800000, .i32⟩ : BufTy).Contents (Elt F) → (⟨S800000x1, .i32⟩ : BufTy).Contents (Elt F)),
    ternary main_v10 main_v11 main_arg1 main_v12 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v9 main_v12 main_v13 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    binary main_v13 main_arg2 main_v14 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v14) main_call0.v0 main_call0.v1 (cmpf .ogt),
    TRef.nullary main_call0.cst_0 (constant S_ .f32 0x00000000#32),
    TRef.unary main_call0.cst_0 main_call0.v2 (broadcastInDim S50000x128 ![] bcast_S_S50000x128),
    TRef.binary (.of main_v14) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x128 ![] bcast_S_S50000x128),
    TRef.ternary main_call0.v3 main_call0.call0.v1 (.of main_v14) main_call0.call0.v2 select,
    TRef.unary main_call0.call0.v2 main_call0.v5 Host.expm1,
    TRef.nullary main_call0.cst_2 (constant S_ .f32 0x3F800000#32),
    TRef.unary main_call0.cst_2 main_call0.v6 (broadcastInDim S50000x128 ![] bcast_S_S50000x128),
    TRef.binary main_call0.v6 main_call0.v5 main_call0.v7 mulf,
    TRef.ternary main_call0.v1 (.of main_v14) main_call0.v7 main_call0.call1.v0 select ]

set_option maxRecDepth 2048 in
/-- The program is that straight line. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- The exponential linear unit as the host spells it, over a whole array. -/
def unitHost (x : FVec F S50000x128 .f32) : FVec F S50000x128 .f32 :=
  select (cmpf .ogt x (broadcastInDim S50000x128 ![] bcast_S_S50000x128 (constant S_ .f32 0x00000000#32))) x
    (mulf (broadcastInDim S50000x128 ![] bcast_S_S50000x128 (constant S_ .f32 0x3F800000#32))
      (Host.expm1 (select (cmpf .ogt x (broadcastInDim S50000x128 ![] bcast_S_S50000x128 (constant S_ .f32 0x00000000#32)))
        (broadcastInDim S50000x128 ![] bcast_S_S50000x128 (id (constant S_ .f32 0x00000000#32))) x)))

/-- The product of the two sums side by side with the whole weight matrix. -/
def projected (A B : FVec F S50000x64 .f32) (W : FVec F S128x128 .f32) : FVec F S50000x128 .f32 :=
  Host.dotGeneral dot_S50000x128_S128x128_S50000x128_1_0_0_1_n_n none
    (concatenate S50000x128 1 [⟨S50000x64, A⟩, ⟨S50000x64, B⟩] concatenates_S50000x64_S50000x64_S50000x128_d1) W

/-- The fold of the operations at the result buffer is the unit of the projected sums of the argument buffers. -/
theorem out_eq (V : Valuation τ sig (Elt F)) :
    after ops V (main_v15 : DevRef τ sig)
      = unitHost (projected
          (nodeSums gather_S50000x64_S800000x1_S800000x64_1_0_n_n_0_1_164 scatter_S50000x64_S800000x1_S800000x64_1_0_0_1
            bcast_S_S800000 bcast_S800000_S800000x1_0 bcast_S_S50000x64
            (V (main_arg0 : DevRef τ sig)) (V (main_arg3 : DevRef τ sig)) (V (main_arg4 : DevRef τ sig)))
          (edgeSums scatter_S50000x64_S800000x1_S800000x64_1_0_0_1 bcast_S800000_S800000x1_0 bcast_S_S50000x64
            (V (main_arg1 : DevRef τ sig)) (V (main_arg4 : DevRef τ sig)))
          (V (main_arg2 : DevRef τ sig))) := by
  after_results_simp
  rfl

/-- Every weakly fair execution ends with the result at the unit of the projected sums, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = unitHost (projected
              (nodeSums gather_S50000x64_S800000x1_S800000x64_1_0_n_n_0_1_164 scatter_S50000x64_S800000x1_S800000x64_1_0_0_1
                bcast_S_S800000 bcast_S800000_S800000x1_0 bcast_S_S50000x64
                (m ((c.tc : Thread nD τ).loc main_arg0)) (m ((c.tc : Thread nD τ).loc main_arg3)) (m ((c.tc : Thread nD τ).loc main_arg4)))
              (edgeSums scatter_S50000x64_S800000x1_S800000x64_1_0_0_1 bcast_S800000_S800000x1_0 bcast_S_S50000x64
                (m ((c.tc : Thread nD τ).loc main_arg1)) (m ((c.tc : Thread nD τ).loc main_arg4)))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v15).trans (out_eq _),
      (h c main_arg0).trans (by after_results),
      (h c main_arg1).trans (by after_results),
      (h c main_arg2).trans (by after_results),
      (h c main_arg3).trans (by after_results),
      (h c main_arg4).trans (by after_results)⟩)
    (run_seq scopedRefs_eq scopedSems_eq defs main (fun _ => ops) main_eq (fun _ => ops_sub) m ρ)

end Cert.LinearElu.Reference

end
-- ==== Proof.LibPlainDotGeneral.lean ====
/-
  A host's plain matrix product read entry by entry over the extended reals.

  For the dimension numbers of an ordinary product, [M, K] by [K, N], the host's general dot product has at row p and
  column q the sum over k of (left at (p, k)) times (right at (k, q)), whatever precision and schedule it is stated
  under.
-/
import proofs.«175959_j67439576482328_1_alg».proof.Proof.LibPlainMatmul

namespace Cert.Lib.PlainDotGeneral

open Idealize.ShloMosaic Idealize.ShloMosaic.ValueIdx Cert.Lib.PlainMatmul

variable {M K N : ℕ}

/-- The host's product at entry (p, q) is the sum over k of the products of the operands' entries (p, k) and (k, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (pos (M := M) (K := K) (N := N)).symm]
  exact Finset.sum_congr rfl fun k _ => by rw [lhsIdx_eq, rhsIdx_eq]

end Cert.Lib.PlainDotGeneral
-- ==== Proof.RefValue.lean ====
/-
  The reference's result, entry by entry, is the specified one.

  The reference puts the node sums A and the edge sums B side by side, C = [A | B] with 128 columns, and multiplies by
  the whole weight matrix: entry (r, q) of the product is the sum over k < 128 of C(r, k) * W(k, q). Its first 64 terms
  read A(r, k) * W(k, q) and its last 64 read B(r, k) * W(64 + k, q): splitting the sum in halves gives the specified
  number before the unit. The host's spelling of the unit then agrees with the specified one at every extended real.
-/
import proofs.«175959_j67439576482328_1_alg».proof.Proof.RefRun
import proofs.«175959_j67439576482328_1_alg».proof.Proof.LibPlainDotGeneral
import proofs.«175959_j67439576482328_1_alg».proof.Proof.Spec
import Idealize.ShloMosaic.Lib.Pipeline.Value

noncomputable section

namespace Cert.LinearElu.Reference

open Cert.ReferenceIdeal Cert.ReferenceIdeal.Gen Idealize.ShloMosaic Idealize.ShloMosaic.ValueIdx
open Cert.LinearElu

/-- The reference's product is an ordinary one: 50000 x 128 by 128 x 128. -/
theorem dims_plain : dot_S50000x128_S128x128_S50000x128_1_0_0_1_n_n = DotDims.plain 50000 128 128 := rfl

/-- The side-by-side array at a column of its left half reads the node sums. -/
theorem beside_upper (A B : FVec Ideal S50000x64 .f32) (r : Fin 50000) (k : Fin 64) :
    concatenate S50000x128 1 [⟨S50000x64, A⟩, ⟨S50000x64, B⟩] concatenates_S50000x64_S50000x64_S50000x128_d1 (ix2 r (upper k))
      = A (ix2 r k) :=
  concatenate_pair_apply_left (1 : Fin 2) A B concatenates_S50000x64_S50000x64_S50000x128_d1 (ix2 r (upper k)) rfl (ix2 r k)
    (fun b => by match b with | ⟨0, _⟩ => rfl | ⟨1, _⟩ => rfl)

/-- At a column of its right half it reads the edge sums. -/
theorem beside_lower (A B : FVec Ideal S50000x64 .f32) (r : Fin 50000) (k : Fin 64) :
    concatenate S50000x128 1 [⟨S50000x64, A⟩, ⟨S50000x64, B⟩] concatenates_S50000x64_S50000x64_S50000x128_d1 (ix2 r (lower k))
      = B (ix2 r k) :=
  concatenate_pair_apply_right (1 : Fin 2) A B concatenates_S50000x64_S50000x64_S50000x128_d1 (ix2 r (lower k)) rfl rfl (ix2 r k)
    (fun b hb => by match b with | ⟨0, _⟩ => rfl | ⟨1, _⟩ => exact absurd rfl hb)
    (by show k.val + 64 = 64 + k.val; omega)

/-- The product of the side-by-side array with the whole weight matrix, at (r, q), is the specified number before the
    unit. -/
theorem projected_apply (A B : FVec Ideal S50000x64 .f32) (W : FVec Ideal S128x128 .f32) (r : Fin 50000) (q : Fin 128) :
    projected (F := Ideal) A B W (ix2 r q) = pre A B W r q := by
  unfold projected
  rw [dims_plain]
  refine (Cert.Lib.PlainDotGeneral.dotGeneral_apply none .single _ W r q).trans ?_
  rw [sum_halves]
  unfold pre
  simp only [beside_upper, beside_lower]

/-- The host's unit of the product is the specified result. -/
theorem unitHost_projected (A B : FVec Ideal S50000x64 .f32) (W : FVec Ideal S128x128 .f32) :
    unitHost (F := Ideal) (projected A B W) = result A B W := by
  funext j
  obtain ⟨r, q, rfl⟩ : ∃ (r : Fin 50000) (q : Fin 128), j = ix2 r q := ⟨j 0, j 1, eq_ix2 j⟩
  rw [result_ix2, ← projected_apply A B W r q]
  exact select_one_mul_expm1 (projected (F := Ideal) A B W (ix2 r q))

end Cert.LinearElu.Reference

end
-- ==== Proof.lean ====
/-
  A message-passing layer: per destination node the sum of the source nodes' features and the sum of the edge labels,
  then one linear map and the exponential linear unit.

  Both programs compute the same two segment sums A (node features gathered by source, summed by destination) and B
  (edge labels summed by destination) with the same host operations. The reference then places A and B side by side,
  multiplies the 128 columns by the whole weight matrix W and applies the unit. The kernel never forms the side-by-side
  array: over ten blocks of 5000 rows it multiplies A by the upper 64 rows of W and B by the lower 64 rows, adds the two
  products and applies the unit spelt with an exponential less one. At the extended reals the two agree entry by entry:
  a sum over 128 positions is the sum over its first 64 plus the sum over its last 64 (addition is commutative and
  associative there, so nothing needs to be finite), rounding to half width is the identity, "e^x - 1" is the exponential
  less one, and one times a number is the number.

  The three frames: the kernel programs' are the generated ones; the reference's is its run with the result dropped.
  The idealization rewrote nothing, so what it must preserve is trivially true.
-/
import proofs.«175959_j67439576482328_1_alg».proof.Defs
import proofs.«175959_j67439576482328_1_alg».proof.Proof.Gen.Kernel
import proofs.«175959_j67439576482328_1_alg».proof.Proof.Gen.Kernel.Frame
import proofs.«175959_j67439576482328_1_alg».proof.Proof.Gen.KernelIdeal
import proofs.«175959_j67439576482328_1_alg».proof.Proof.Gen.KernelIdeal.Frame
import proofs.«175959_j67439576482328_1_alg».proof.Proof.Gen.KernelIdeal.Value
import proofs.«175959_j67439576482328_1_alg».proof.Proof.Gen.ReferenceIdeal
import proofs.«175959_j67439576482328_1_alg».proof.Proof.Gen.Pre_finite_inputs
import proofs.«175959_j67439576482328_1_alg».proof.Proof.KernelRun
import proofs.«175959_j67439576482328_1_alg».proof.Proof.RefRun
import proofs.«175959_j67439576482328_1_alg».proof.Proof.RefValue
import Idealize.ShloMosaic.Adequacy
import Idealize.ShloMosaic.Init

noncomputable section

namespace Cert.Proof

open Idealize.ShloMosaic Idealize.ShloMosaic.TcCoe Idealize.SL.Sem
open Cert.LinearElu

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.LinearElu.Reference.run (F := Ideal) m ρ)

theorem preserves : Cert.preserves_Kernel_KernelIdeal := trivial

/-- Both runs end with the result at the specified array of the two segment sums and the weight matrix: the kernel's by
    its ten blocks, the reference's by its one product; the segment sums are the same operations of the same arguments. -/
theorem algebraic : Cert.algebraic_KernelIdeal_ReferenceIdeal := by
  intro m ρ m' ρ' _ hagree
  refine ⟨fun c => result (Cert.LinearElu.Kernel.nodeSumsOf m c) (Cert.LinearElu.Kernel.edgeSumsOf m c)
      (m ((c.tc : Thread Cert.KernelIdeal.nD Cert.KernelIdeal.τ).loc Cert.KernelIdeal.main_arg2)),
    Cert.LinearElu.Kernel.run m ρ, ?_⟩
  refine (θ_run Cert.ReferenceIdeal.defs _ _).mono (fun _ h c => ⟨(h c).1.trans ?_, (h c).2⟩)
    (Cert.LinearElu.Reference.run (F := Ideal) m' ρ')
  rw [(hagree c).1, (hagree c).2.1, (hagree c).2.2.1, (hagree c).2.2.2.1, (hagree c).2.2.2.2,
    Cert.LinearElu.Reference.unitHost_projected]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
